-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S8x2048x1024 .f32) (main_arg1 : FVec F S8x2048x1024 .f32) (main_arg2 : FVec F S8x2048x1024 .f32) (main_arg3 : FVec F S1024x1024 .f32) (main_arg4 : FVec F S1024x1024 .f32) (main_arg5 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S2048x1024 : Shape := ⟨2, ![2048, 1024]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S8x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256x2048, .f32⟩
  | .local _ .vmem, ⟨6, _⟩ => ⟨S1x256x2048, .f32⟩
  | .local _ .vmem, ⟨7, _⟩ => ⟨S2048x1024, .bf16⟩
  | .local _ .vmem, ⟨8, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  transposes_S2048x1024_p1_0_S1024x2048 : S2048x1024.Transposes [1, 0] S1024x2048
  reduces_S256x2048_S256 : S256x2048.Reduces [1] S256
  shapeCasts_S256_S256x1 : S256.ShapeCasts S256x1
  broadcasts_S256x1_S256x2048 : S256x1.Broadcasts S256x2048
  inb_S1x256x2048_S1x256x1024_0_0_0 : ∀ a, (![0, 0, 0] : Fin 3 → Nat) a + S1x256x1024.size a ≤ S1x256x2048.size a
  shapeCasts_S256x1024_S1x256x1024 : S256x1024.ShapeCasts S1x256x1024
  inb_S1x256x2048_S1x256x1024_0_0_1024 : ∀ a, (![0, 0, 1024] : Fin 3 → Nat) a + S1x256x1024.size a ≤ S1x256x2048.size a
  dot_S2048x1024_S1024x1024_S2048x1024_1_0_0_1_n_n_wf : DotDims.WF S2048x1024 S1024x1024 S2048x1024 [1] [0] [0] [1] [] []
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2048x2048.size a
  hwx0_4 : ∀ i : grid0.Coords, EltTy.bits .f32 = 32 ∨ (Rect.block (s := S8x2048x2048) S1x256x2048.size (cc0_transform_4 i) (hinb0_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8x2048x1024, .f32⟩
  | .hbm, ⟨7, _⟩ => ⟨S8x2048x1024, .f32⟩
  | .hbm, ⟨8, _⟩ => ⟨S8x2048x2048, .f32⟩
  | .hbm, ⟨9, _⟩ => ⟨S_, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x1024, .f32⟩
  | .hbm, ⟨28, _⟩ => ⟨S_, .f32⟩
  | .hbm, ⟨29, _⟩ => ⟨S8x2048x1024, .f32⟩
  | .hbm, ⟨30, _⟩ => ⟨S8x2048x1024, .f32⟩
  | .hbm, ⟨31, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048x1024 : S_.BroadcastsInDim S8x2048x1024 (![] : Fin 0 → Fin S8x2048x1024.rank)
  concatenates_S8x2048x1024_S8x2048x1024_S8x2048x2048_d2 : Shape.Concatenates [S8x2048x1024, S8x2048x1024] S8x2048x2048 2
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Pieces.lean ====
/- What one run of the kernel body leaves behind, as values.

   At the first q-tile of a batch the body stores K = freq_b · Wk and V = freq_b into the two carried
   buffers; at every q-tile it stores the rgb tile into the left half of its output block and half the
   attention output (computed from the carried K and V) into the right half.  The block a point leaves is
   therefore two stores side by side: `block x0 x2 K V`. -/
import proofs.«112244_j62027917689453_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Tactic
open Cert.KernelIdeal Cert.KernelIdeal.Gen

namespace Cert.KernelIdeal.Body

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The output block of a point: the right half holds half the attention output of the rgb tile `x0`
    against the keys `K` and values `V`, the left half the rgb tile itself. -/
def block (x0 : Vec F S1x256x1024 .f32) (x2 : Vec F S1024x1024 .bf16) (K V : Vec F S2048x1024 .bf16) :
    Vec F S1x256x2048 .f32 :=
  View.canon [(⟨Rect.unit ![0, 0, 1024] ![1, 256, 1024] inb_S1x256x2048_S1x256x1024_0_0_1024, k0_pay1 (k0_pay7 x0 x2 K V)⟩ : View.Piece (Elt F) S1x256x2048 .f32),
    (⟨Rect.unit ![0, 0, 0] ![1, 256, 1024] inb_S1x256x2048_S1x256x1024_0_0_0, k0_pay6 x0⟩ : View.Piece (Elt F) S1x256x2048 .f32)]

/-- At a batch's first q-tile the key buffer is left holding the projected keys of the freq block. -/
theorem keys_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x2048 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i) (x0 : Vec F S1x256x1024 .f32) (x1 : Vec F S1x2048x1024 .f32) (x2 : Vec F S1024x1024 .bf16) (x3 : Vec F S1024x1024 .bf16) :
    sout0_A_0 c i arg2 harg2 arg3 harg3 arg4 harg4 arg5 harg5 arg6 harg6 arg7 harg7 arg8 harg8 hc0 x0 x1 x2 x3 = k0_pay3 x1 x3 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero zeros2]
  simp only [View.readAt_eq_ld, harg3.read_unread, harg5.read_unread, View.ld_unit_zero (S := S1x2048x1024) zeros3,
    View.ld_unit_zero (S := S1024x1024) zeros2]

/-- … and the value buffer the freq block itself. -/
theorem values_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x2048 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i) (x0 : Vec F S1x256x1024 .f32) (x1 : Vec F S1x2048x1024 .f32) (x2 : Vec F S1024x1024 .bf16) (x3 : Vec F S1024x1024 .bf16) :
    sout0_A_1 c i arg2 harg2 arg3 harg3 arg4 harg4 arg5 harg5 arg6 harg6 arg7 harg7 arg8 harg8 hc0 x0 x1 x2 x3 = k0_pay4 x1 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero zeros2]
  simp only [View.readAt_eq_ld, harg3.read_unread, View.ld_unit_zero (S := S1x2048x1024) zeros3]

/-- At a batch's first q-tile the output block is computed from the keys and values just stored. -/
theorem block_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x2048 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i) (x0 : Vec F S1x256x1024 .f32) (x1 : Vec F S1x2048x1024 .f32) (x2 : Vec F S1024x1024 .bf16) (x3 : Vec F S1024x1024 .bf16) :
    out0_A_4 c i arg2 harg2 arg3 harg3 arg4 harg4 arg5 harg5 arg6 harg6 arg7 harg7 arg8 harg8 hc0 x0 x1 x2 x3 = block x0 x2 (k0_pay3 x1 x3) (k0_pay4 x1) := by
  unfold out0_A_4 block
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  simp only [View.readCov_unit_zero (S := S2048x1024) _ zeros2, View.readAt_eq_ld, harg2.read_unread, harg3.read_unread,
    harg4.read_unread, harg5.read_unread, View.ld_unit_zero (S := S1x2048x1024) zeros3,
    View.ld_unit_zero (S := S1x256x1024) zeros3, View.ld_unit_zero (S := S1024x1024) zeros2]

/-- At a later q-tile it is computed from the carried keys and values. -/
theorem block_later (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x2048 .f32) (harg6 : arg6.IsWhole) (arg7 : Memref sig .tc .vmem S2048x1024 .bf16) (harg7 : arg7.IsWhole) (arg8 : Memref sig .tc .vmem S2048x1024 .bf16) (harg8 : arg8.IsWhole) (hc0 : ¬cond0_0 i) (x0 : Vec F S1x256x1024 .f32) (x1 : Vec F S1x2048x1024 .f32) (x2 : Vec F S1024x1024 .bf16) (x3 : Vec F S1024x1024 .bf16) (xs0 : Vec F S2048x1024 .bf16) (xs1 : Vec F S2048x1024 .bf16) :
    out0_B_4 c i arg2 harg2 arg3 harg3 arg4 harg4 arg5 harg5 arg6 harg6 arg7 harg7 arg8 harg8 hc0 x0 x1 x2 x3 xs0 xs1 = block x0 x2 xs0 xs1 := by
  unfold out0_B_4 block
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  sl_unfold_words
  simp only [View.readAt_eq_ld, harg2.read_unread, harg4.read_unread, harg7.read_unread, harg8.read_unread,
    View.ld_unit_zero (S := S1x256x1024) zeros3, View.ld_unit_zero (S := S1024x1024) zeros2,
    View.ld_unit_zero (S := S2048x1024) zeros2]

end Cert.KernelIdeal.Body

end
-- ==== Proof.Spec.lean ====
/- Scaled dot-product attention over the extended reals, as one function of the argument arrays.

   For a batch b and a row n, with q = rgb · Wq and k = freq · Wk,
     score b n m  = (Σ_e q[b,n,e] · k[b,m,e]) · (1/32)
     softmax      = exp (score − max_m score) / Σ_m exp (score − max_m score)
     attend b n d = Σ_m softmax b n m · freq[b,m,d]
   and the result has rgb in its first 1024 columns and (1/2) · attend in its last 1024.

   The constants stay bit patterns; the only arithmetic fact about them that the comparison with the
   reference needs is that dividing by sqrt 1024 is multiplying by 1/32 (on every extended real). -/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- (batch, row, feature) arrays; the square weights; the result. -/
abbrev Tok : Shape := ⟨3, ![8, 2048, 1024]⟩
abbrev Wt : Shape := ⟨2, ![1024, 1024]⟩
abbrev Res : Shape := ⟨3, ![8, 2048, 2048]⟩

/-- One entry of a projection x · w: the sum over the feature axis. -/
def proj (x : Tok.Idx → EReal) (w : Wt.Idx → EReal) (b : Fin 8) (n : Fin 2048) (e : Fin 1024) : EReal :=
  ∑ d : Fin 1024, x (ix3 b n d) * w (ix2 d e)

/-- The scaled score of query row n against key row m of batch b. -/
def score (rgb freq : Tok.Idx → EReal) (wq wk : Wt.Idx → EReal) (b : Fin 8) (n m : Fin 2048) : EReal :=
  (∑ e : Fin 1024, proj rgb wq b n e * proj freq wk b m e) * Ideal.ofBits .f32 0x3D000000#32

/-- The maximum of a row, folded from −∞. -/
def rowMax (s : Fin 2048 → EReal) : EReal :=
  (Finset.univ : Finset (Fin 2048)).fold max (Ideal.ofBits .f32 0xFF800000#32) s

/-- The shifted exponential of a row's entry. -/
def expRow (s : Fin 2048 → EReal) (m : Fin 2048) : EReal := Ideal.exp (s m - rowMax s)

/-- The softmax weight of a row's entry. -/
def softmaxRow (s : Fin 2048 → EReal) (m : Fin 2048) : EReal :=
  Ideal.div (expRow s m) (∑ m' : Fin 2048, expRow s m')

/-- The attention output: the softmax weights applied to the raw freq rows. -/
def attend (rgb freq : Tok.Idx → EReal) (wq wk : Wt.Idx → EReal) (b : Fin 8) (n : Fin 2048) (d : Fin 1024) : EReal :=
  ∑ m : Fin 2048, softmaxRow (score rgb freq wq wk b n) m * freq (ix3 b m d)

/-- The whole result: rgb beside half the attention output, along the last axis. -/
def result (rgb freq : Tok.Idx → EReal) (wq wk : Wt.Idx → EReal) : Res.Idx → EReal := fun i =>
  if h : (i 2).val < 1024 then rgb (ix3 (i 0) (i 1) ⟨(i 2).val, h⟩)
  else Ideal.ofBits .f32 0x3F000000#32 *
    attend rgb freq wq wk (i 0) (i 1) ⟨(i 2).val - 1024, by have h2 : (i 2).val < 2048 := (i 2).isLt; omega⟩

/-! ## The constants -/

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern of 0.03125 denotes the real 1/32. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  show (if (1024 : ℝ) < 0 then (⊥ : EReal) else ((Real.sqrt 1024 : ℝ) : EReal)) = _
  rw [if_neg (by norm_num)]
  congr 1
  rw [show (1024 : ℝ) = 32 ^ 2 by norm_num]
  exact Real.sqrt_sq (by norm_num)

/-- Dividing by sqrt 1024 is multiplying by 1/32, at the infinities too. -/
theorem div_sqrt_1024 (s : EReal) :
    Ideal.div s (Ideal.sqrt (Ideal.ofBits .f32 0x44800000#32)) = s * Ideal.ofBits .f32 0x3D000000#32 := by
  rw [ofBits_1024, sqrt_1024, Ideal.div_coe (by norm_num : (32 : ℝ) ≠ 0), ofBits_inv32]

/-- −∞ is below every fold of max that starts from it. -/
theorem max_init_fold (a : EReal) (s : Fin 2048 → EReal) :
    max a ((Finset.univ : Finset (Fin 2048)).fold max a s) = (Finset.univ : Finset (Fin 2048)).fold max a s :=
  max_eq_right ((Finset.le_fold_max a).mpr (Or.inl le_rfl))

end Cert.Attn

end
-- ==== Proof.TileOps.lean ====
/- The operations of the kernel body read at an index, over the extended reals.

   Each matrix product into a zero accumulator is the plain sum of products over the contracted axis; the
   transpose swaps the two coordinates; a row reduction kept as a column and broadcast back along the row
   is the row's reduction at every column. -/
import proofs.«112244_j62027917689453_2_alg».proof.Proof.Gen.KernelIdeal.Skeleton
import proofs.«112244_j62027917689453_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.ValueIdx
open Cert.KernelIdeal Cert.KernelIdeal.Gen Cert.Attn

namespace Cert.KernelIdeal.Body

theorem mm_keys_row (i : S2048x1024.Idx) (q : dot_S2048x1024_S1024x1024_S2048x1024_1_0_0_1_n_n.contr.Idx) : (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem mm_keys_col (i : S2048x1024.Idx) (q : dot_S2048x1024_S1024x1024_S2048x1024_1_0_0_1_n_n.contr.Idx) : (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl
/-- The key projection: a [2048,1024] by [1024,1024] product. -/
theorem mm_keys (a : FVec Ideal S2048x1024 .bf16) (b : FVec Ideal S1024x1024 .bf16) (r : Fin 2048) (c : Fin 1024) :
    matmul dot_S2048x1024_S1024x1024_S2048x1024_1_0_0_1_n_n none a b (constant (F := Ideal) S2048x1024 .f32 0x00000000#32) (ix2 r c)
      = ∑ k : Fin 1024, a (ix2 r k) * b (ix2 k c) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r c) ((contrEquiv1 dot_S2048x1024_S1024x1024_S2048x1024_1_0_0_1_n_n 1024 rfl rfl).symm k) = ix2 r k := funext fun x => Fin.ext (by
    match x with
    | ⟨0, _⟩ => exact mm_keys_row _ _
    | ⟨1, _⟩ => exact (dot_S2048x1024_S1024x1024_S2048x1024_1_0_0_1_n_n.lhsIdx_val_of_single rfl _ _).trans hk)
  have er : dot_S2048x1024_S1024x1024_S2048x1024_1_0_0_1_n_n.rhsIdx (ix2 r c) ((contrEquiv1 dot_S2048x1024_S1024x1024_S2048x1024_1_0_0_1_n_n 1024 rfl rfl).symm k) = ix2 k c := funext fun x => Fin.ext (by
    match x with
    | ⟨0, _⟩ => exact (dot_S2048x1024_S1024x1024_S2048x1024_1_0_0_1_n_n.rhsIdx_val_of_single rfl _ _).trans hk
    | ⟨1, _⟩ => exact mm_keys_col _ _)
  rw [el, er]

theorem mm_query_row (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem mm_query_col (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
/-- The query projection of a tile: a [256,1024] by [1024,1024] product. -/
theorem mm_query (a : FVec Ideal S256x1024 .bf16) (b : FVec Ideal S1024x1024 .bf16) (r : Fin 256) (c : Fin 1024) :
    matmul dot_S256x1024_S1024x1024_S256x1024_1_0_0_1_n_n none a b (constant (F := Ideal) S256x1024 .f32 0x00000000#32) (ix2 r c)
      = ∑ k : Fin 1024, a (ix2 r k) * b (ix2 k c) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r c) ((contrEquiv1 dot_S256x1024_S1024x1024_S256x1024_1_0_0_1_n_n 1024 rfl rfl).symm k) = ix2 r k := funext fun x => Fin.ext (by
    match x with
    | ⟨0, _⟩ => exact mm_query_row _ _
    | ⟨1, _⟩ => exact (dot_S256x1024_S1024x1024_S256x1024_1_0_0_1_n_n.lhsIdx_val_of_single rfl _ _).trans hk)
  have er : dot_S256x1024_S1024x1024_S256x1024_1_0_0_1_n_n.rhsIdx (ix2 r c) ((contrEquiv1 dot_S256x1024_S1024x1024_S256x1024_1_0_0_1_n_n 1024 rfl rfl).symm k) = ix2 k c := funext fun x => Fin.ext (by
    match x with
    | ⟨0, _⟩ => exact (dot_S256x1024_S1024x1024_S256x1024_1_0_0_1_n_n.rhsIdx_val_of_single rfl _ _).trans hk
    | ⟨1, _⟩ => exact mm_query_col _ _)
  rw [el, er]

theorem mm_scores_row (i : S256x2048.Idx) (q : dot_S256x1024_S1024x2048_S256x2048_1_0_0_1_n_n.contr.Idx) : (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem mm_scores_col (i : S256x2048.Idx) (q : dot_S256x1024_S1024x2048_S256x2048_1_0_0_1_n_n.contr.Idx) : (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl
/-- The scores of a tile: a [256,1024] by [1024,2048] product. -/
theorem mm_scores (a : FVec Ideal S256x1024 .bf16) (b : FVec Ideal S1024x2048 .bf16) (r : Fin 256) (c : Fin 2048) :
    matmul dot_S256x1024_S1024x2048_S256x2048_1_0_0_1_n_n none a b (constant (F := Ideal) S256x2048 .f32 0x00000000#32) (ix2 r c)
      = ∑ k : Fin 1024, a (ix2 r k) * b (ix2 k c) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 r c) ((contrEquiv1 dot_S256x1024_S1024x2048_S256x2048_1_0_0_1_n_n 1024 rfl rfl).symm k) = ix2 r k := funext fun x => Fin.ext (by
    match x with
    | ⟨0, _⟩ => exact mm_scores_row _ _
    | ⟨1, _⟩ => exact (dot_S256x1024_S1024x2048_S256x2048_1_0_0_1_n_n.lhsIdx_val_of_single rfl _ _).trans hk)
  have er : dot_S256x1024_S1024x2048_S256x2048_1_0_0_1_n_n.rhsIdx (ix2 r c) ((contrEquiv1 dot_S256x1024_S1024x2048_S256x2048_1_0_0_1_n_n 1024 rfl rfl).symm k) = ix2 k c := funext fun x => Fin.ext (by
    match x with
    | ⟨0, _⟩ => exact (dot_S256x1024_S1024x2048_S256x2048_1_0_0_1_n_n.rhsIdx_val_of_single rfl _ _).trans hk
    | ⟨1, _⟩ => exact mm_scores_col _ _)
  rw [el, er]

theorem mm_values_row (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem mm_values_col (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl
/-- The weighted values of a tile: a [256,2048] by [2048,1024] product. -/
theorem mm_values (a : FVec Ideal S256x2048 .bf16) (b : FVec Ideal S2048x1024 .bf16) (r : Fin 256) (c : Fin 1024) :
    matmul dot_S256x2048_S2048x1024_S256x1024_1_0_0_1_n_n none a b (constant (F := Ideal) S256x1024 .f32 0x00000000#32) (ix2 r c)
      = ∑ k : Fin 2048, a (ix2 r k) * b (ix2 k c) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 r c) ((contrEquiv1 dot_S256x2048_S2048x1024_S256x1024_1_0_0_1_n_n 2048 rfl rfl).symm k) = ix2 r k := funext fun x => Fin.ext (by
    match x with
    | ⟨0, _⟩ => exact mm_values_row _ _
    | ⟨1, _⟩ => exact (dot_S256x2048_S2048x1024_S256x1024_1_0_0_1_n_n.lhsIdx_val_of_single rfl _ _).trans hk)
  have er : dot_S256x2048_S2048x1024_S256x1024_1_0_0_1_n_n.rhsIdx (ix2 r c) ((contrEquiv1 dot_S256x2048_S2048x1024_S256x1024_1_0_0_1_n_n 2048 rfl rfl).symm k) = ix2 k c := funext fun x => Fin.ext (by
    match x with
    | ⟨0, _⟩ => exact (dot_S256x2048_S2048x1024_S256x1024_1_0_0_1_n_n.rhsIdx_val_of_single rfl _ _).trans hk
    | ⟨1, _⟩ => exact mm_values_col _ _)
  rw [el, er]

/-- The transposed keys at (e, m) are the keys at (m, e). -/
theorem transpose_keys (K : FVec Ideal S2048x1024 .bf16) (e : Fin 1024) (m : Fin 2048) :
    transpose S1024x2048 [1, 0] K transposes_S2048x1024_p1_0_S1024x2048 (ix2 e m) = K (ix2 m e) :=
  transpose_apply _ K _ _ _ fun c => match c with | ⟨0, _⟩ => rfl | ⟨1, _⟩ => rfl

/-- A per-row value kept as a column and broadcast along the row is that row's value at every column. -/
theorem column_broadcast (v : FVec Ideal S256 .f32) (r : Fin 256) (m : Fin 2048) :
    broadcastTo S256x2048 (shapeCast S256x1 v shapeCasts_S256_S256x1) broadcasts_S256x1_S256x2048 (ix2 r m) = v (ix1 r) := by
  refine (broadcastTo_apply _ broadcasts_S256x1_S256x2048 (ix2 r m) (ix2 r (0 : Fin 1)) fun a => ?_).trans
    (shapeCast_apply v shapeCasts_S256_S256x1 (ix2 r (0 : Fin 1)) (ix1 r) ?_)
  · match a with
    | ⟨0, _⟩ => show r.val = if (256 : Nat) = 1 then 0 else r.val; rw [if_neg (by decide)]
    | ⟨1, _⟩ => show 0 = if (1 : Nat) = 1 then 0 else m.val; rw [if_pos rfl]
  · rw [Shape.rowMajor_val_one, Shape.rowMajor_val_two]
    show r.val = r.val * 1 + 0
    omega

/-- A row's maximum, folded from the accumulator's pattern. -/
theorem row_max (v : FVec Ideal S256x2048 .f32) (hφ : FKind.Formats .f32)
    (hacc : (0xFF800000#32 : BitVec 32) = FKind.maximumf.neutral .f32 hφ) (r : Fin 256) :
    multiReduction .maximumf [1] S256 v 0xFF800000#32 reduces_S256x2048_S256 hφ hacc (ix1 r)
      = rowMax (fun m => v (ix2 r m)) := by
  refine (Ideal.multiReduction_maximumf_single v 0xFF800000#32 reduces_S256x2048_S256 hφ hacc (ix1 r)).trans ?_
  unfold rowMax
  refine congrArg (fun f => Finset.fold max _ f Finset.univ) (funext fun m => congrArg v (funext fun a => Fin.ext ?_))
  match a with
  | ⟨0, _⟩ => rfl
  | ⟨1, _⟩ => rfl

/-- A row's sum. -/
theorem row_sum (v : FVec Ideal S256x2048 .f32) (hφ : FKind.Formats .f32)
    (hacc : (0x00000000#32 : BitVec 32) = FKind.add.neutral .f32 hφ) (r : Fin 256) :
    multiReduction .add [1] S256 v 0x00000000#32 reduces_S256x2048_S256 hφ hacc (ix1 r)
      = ∑ m : Fin 2048, v (ix2 r m) := by
  refine (Ideal.multiReduction_add_single v 0x00000000#32 reduces_S256x2048_S256 hφ hacc (ix1 r)).trans ?_
  refine Finset.sum_congr rfl fun m _ => congrArg v (funext fun a => Fin.ext ?_)
  match a with
  | ⟨0, _⟩ => rfl
  | ⟨1, _⟩ => rfl

end Cert.KernelIdeal.Body

end
-- ==== Proof.TileValue.lean ====
/- The values the kernel body stores, read at an index over the extended reals.

   The body's arithmetic is cut into its stages — the query tile, the scaled scores, the shifted
   exponentials, the softmax weights — each read at a row r and a column; the stores are then
   the projected keys, the freq block, the rgb tile, and half the weighted sum of the values. -/
import proofs.«112244_j62027917689453_2_alg».proof.Proof.TileOps

set_option maxRecDepth 16384

noncomputable section

open Idealize.ShloMosaic Idealize.ShloMosaic.TcCoe Idealize.SL.Sem
open Idealize.ShloMosaic.ValueIdx
open Cert.KernelIdeal Cert.KernelIdeal.Gen Cert.Attn

namespace Cert.KernelIdeal.Body

/-- The query tile: the rgb tile times Wq. -/
def queryTile (x0 : Vec Ideal S1x256x1024 .f32) (x2 : FVec Ideal S1024x1024 .bf16) : FVec Ideal S256x1024 .f32 :=
  matmul dot_S256x1024_S1024x1024_S256x1024_1_0_0_1_n_n none (truncf .bf16 (k0_pay5 x0) bitsLt_bf16_f32)
    (shapeCast S1024x1024 x2 shapeCasts_S1024x1024_S1024x1024) (constant S256x1024 .f32 0x00000000#32)

/-- The scaled scores of a query tile against all the keys. -/
def scoreTile (q : FVec Ideal S256x1024 .f32) (K : FVec Ideal S2048x1024 .bf16) : FVec Ideal S256x2048 .f32 :=
  mulf (matmul dot_S256x1024_S1024x2048_S256x2048_1_0_0_1_n_n none (truncf .bf16 q bitsLt_bf16_f32)
      (transpose S1024x2048 [1, 0] K transposes_S2048x1024_p1_0_S1024x2048) (constant S256x2048 .f32 0x00000000#32))
    (broadcast S256x2048 (Scalar.ofBits .f32 0x3D000000#32))

/-- The exponentials of the scores less their row maxima. -/
def expTile (s : FVec Ideal S256x2048 .f32) : FVec Ideal S256x2048 .f32 :=
  exp (subf s (broadcastTo S256x2048 (shapeCast S256x1 (multiReduction .maximumf [1] S256 s 0xFF800000#32
    reduces_S256x2048_S256 (.inl rfl) rfl) shapeCasts_S256_S256x1) broadcasts_S256x1_S256x2048))

/-- The exponentials over their row sums. -/
def weightTile (e : FVec Ideal S256x2048 .f32) : FVec Ideal S256x2048 .f32 :=
  divf e (broadcastTo S256x2048 (shapeCast S256x1 (multiReduction .add [1] S256 e 0x00000000#32
    reduces_S256x2048_S256 (.inl rfl) rfl) shapeCasts_S256_S256x1) broadcasts_S256x1_S256x2048)

/-- The body's last value is half the softmax weights times the values. -/
theorem pay7_stages (x0 : Vec Ideal S1x256x1024 .f32) (x2 : FVec Ideal S1024x1024 .bf16) (K V : FVec Ideal S2048x1024 .bf16) :
    k0_pay7 (F := Ideal) x0 x2 K V = mulf (broadcast S256x1024 (Scalar.ofBits .f32 0x3F000000#32))
      (matmul dot_S256x2048_S2048x1024_S256x1024_1_0_0_1_n_n none (truncf .bf16 (weightTile (expTile (scoreTile (queryTile x0 x2) K))) bitsLt_bf16_f32) V
        (constant S256x1024 .f32 0x00000000#32)) := rfl

theorem queryTile_apply (x0 : Vec Ideal S1x256x1024 .f32) (x2 : FVec Ideal S1024x1024 .bf16) (r : Fin 256) (e : Fin 1024) :
    queryTile x0 x2 (ix2 r e) = ∑ d : Fin 1024, x0 (ix3 (0 : Fin 1) r d) * x2 (ix2 d e) := by
  unfold queryTile
  refine (mm_query _ _ r e).trans (Finset.sum_congr rfl fun d _ => ?_)
  have h1 : (truncf .bf16 (k0_pay5 x0) bitsLt_bf16_f32 : FVec Ideal S256x1024 .bf16) (ix2 r d) = x0 (ix3 (0 : Fin 1) r d) :=
    shapeCast_1ab_ab_apply x0 shapeCasts_S1x256x1024_S256x1024 r d
  have h2 : shapeCast S1024x1024 x2 shapeCasts_S1024x1024_S1024x1024 = x2 := shapeCast_self _ _
  rw [h1, h2]

theorem scoreTile_apply (q : FVec Ideal S256x1024 .f32) (K : FVec Ideal S2048x1024 .bf16) (r : Fin 256) (m : Fin 2048) :
    scoreTile q K (ix2 r m) = (∑ e : Fin 1024, q (ix2 r e) * K (ix2 m e)) * Ideal.ofBits .f32 0x3D000000#32 := by
  unfold scoreTile
  refine congrArg (· * Ideal.ofBits .f32 0x3D000000#32) ((mm_scores _ _ r m).trans (Finset.sum_congr rfl fun e _ => ?_))
  rw [transpose_keys]
  rfl

theorem expTile_apply (s : FVec Ideal S256x2048 .f32) (r : Fin 256) (m : Fin 2048) :
    expTile s (ix2 r m) = expRow (fun m => s (ix2 r m)) m := by
  unfold expTile expRow
  exact congrArg (fun z => Ideal.exp (s (ix2 r m) - z)) ((column_broadcast _ r m).trans (row_max s _ _ r))

theorem weightTile_apply (e : FVec Ideal S256x2048 .f32) (r : Fin 256) (m : Fin 2048) :
    weightTile e (ix2 r m) = Ideal.div (e (ix2 r m)) (∑ m' : Fin 2048, e (ix2 r m')) := by
  unfold weightTile
  exact congrArg (fun z => Ideal.div (e (ix2 r m)) z) ((column_broadcast _ r m).trans (row_sum e _ _ r))

/-- THE RIGHT HALF of a point's block at (r, d): half the softmax of row r's scaled scores against the keys K,
    applied to column d of the values V. -/
theorem attention_tile (x0 : Vec Ideal S1x256x1024 .f32) (x2 : FVec Ideal S1024x1024 .bf16) (K V : FVec Ideal S2048x1024 .bf16)
    (r : Fin 256) (d : Fin 1024) :
    k0_pay1 (k0_pay7 (F := Ideal) x0 x2 K V) (ix3 (0 : Fin 1) r d)
      = Ideal.ofBits .f32 0x3F000000#32 * ∑ m : Fin 2048, softmaxRow (fun m : Fin 2048 => (∑ e : Fin 1024, (∑ d' : Fin 1024, x0 (ix3 (0 : Fin 1) r d') * x2 (ix2 d' e)) * K (ix2 m e)) * Ideal.ofBits .f32 0x3D000000#32) m * V (ix2 m d) := by
  unfold k0_pay1
  refine (shapeCast_ab_1ab_apply (k0_pay7 (F := Ideal) x0 x2 K V) shapeCasts_S256x1024_S1x256x1024 0 r d).trans ?_
  rw [pay7_stages]
  refine congrArg (Ideal.ofBits .f32 0x3F000000#32 * ·) ((mm_values _ _ r d).trans (Finset.sum_congr rfl fun m _ => ?_))
  refine congrArg (· * V (ix2 m d)) ?_
  show weightTile (expTile (scoreTile (queryTile x0 x2) K)) (ix2 r m) = _
  have hs : (fun m : Fin 2048 => scoreTile (queryTile x0 x2) K (ix2 r m)) = (fun m : Fin 2048 => (∑ e : Fin 1024, (∑ d' : Fin 1024, x0 (ix3 (0 : Fin 1) r d') * x2 (ix2 d' e)) * K (ix2 m e)) * Ideal.ofBits .f32 0x3D000000#32) :=
    funext fun m => by rw [scoreTile_apply]; simp only [queryTile_apply]
  rw [weightTile_apply]
  unfold softmaxRow
  simp only [expTile_apply, hs]

/-- THE LEFT HALF of a point's block is the rgb tile. -/
theorem rgb_tile (x0 : Vec Ideal S1x256x1024 .f32) (r : Fin 256) (d : Fin 1024) :
    k0_pay6 (F := Ideal) x0 (ix3 (0 : Fin 1) r d) = x0 (ix3 (0 : Fin 1) r d) := by
  unfold k0_pay6
  exact (shapeCast_ab_1ab_apply (k0_pay5 x0) shapeCasts_S256x1024_S1x256x1024 0 r d).trans
    (shapeCast_1ab_ab_apply x0 shapeCasts_S1x256x1024_S256x1024 r d)

/-- THE KEYS stored at a batch's first q-tile: the freq block times Wk. -/
theorem keys_tile (x1 : Vec Ideal S1x2048x1024 .f32) (x3 : FVec Ideal S1024x1024 .bf16) (m : Fin 2048) (e : Fin 1024) :
    k0_pay3 (F := Ideal) x1 x3 (ix2 m e) = ∑ d : Fin 1024, x1 (ix3 (0 : Fin 1) m d) * x3 (ix2 d e) := by
  unfold k0_pay3
  refine (congrFun (shapeCast_self _ shapeCasts_S2048x1024_S2048x1024) (ix2 m e)).trans ?_
  refine (mm_keys _ _ m e).trans (Finset.sum_congr rfl fun d _ => ?_)
  have h1 : (k0_pay2 (F := Ideal) x1) (ix2 m d) = x1 (ix3 (0 : Fin 1) m d) :=
    shapeCast_1ab_ab_apply x1 shapeCasts_S1x2048x1024_S2048x1024 m d
  have h2 : shapeCast S1024x1024 x3 shapeCasts_S1024x1024_S1024x1024 = x3 := shapeCast_self _ _
  rw [h1, h2]

/-- THE VALUES stored there: the freq block itself. -/
theorem values_tile (x1 : Vec Ideal S1x2048x1024 .f32) (m : Fin 2048) (d : Fin 1024) :
    k0_pay4 (F := Ideal) x1 (ix2 m d) = x1 (ix3 (0 : Fin 1) m d) := by
  unfold k0_pay4
  exact (congrFun (shapeCast_self _ shapeCasts_S2048x1024_S2048x1024) (ix2 m d)).trans
    (shapeCast_1ab_ab_apply x1 shapeCasts_S1x2048x1024_S2048x1024 m d)

end Cert.KernelIdeal.Body

end
-- ==== Proof.Blocks.lean ====
/- The windows' blocks as reads of their arrays.

   Grid point t is (batch, q-tile) = (t / 8, t mod 8).  The rgb window's block at t is rows
   256·(t mod 8) … of batch t / 8; the freq window's block is the whole of batch t / 8; the two weight windows'
   blocks are the whole weight arrays; the result window's block is rows 256·(t mod 8) … of batch t / 8 of the
   result, and these 64 blocks cover it. -/
import proofs.«112244_j62027917689453_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.ValueIdx Idealize.ShloMosaic.Pipeline
open Cert.KernelIdeal Cert.KernelIdeal.Gen

namespace Cert.KernelIdeal.Blocks

variable {F : FTy → Type} [FloatOps F]
variable (m : (ℓ : Loc nD τ sig) → Buf (Elt F) ℓ)

/-- The batch of a grid point. -/
def batch (t : Fin cfg0.N) : Fin 8 := ⟨t.val / 8, by have h := t.isLt; have hN : cfg0.N = 64 := N_0; omega⟩

/-- Row r of a grid point's q-tile, as a row of the batch. -/
def row (t : Fin cfg0.N) (r : Fin 256) : Fin 2048 := ⟨(t.val % 8) * 256 + r.val, by have h := r.isLt; omega⟩

/-- The printed index maps, decided over the grid: the rgb and result windows' block indices at point t are
    (t / 8, t mod 8, 0), the freq window's (t / 8, 0, 0), the weight windows' (0, 0). -/
theorem win_index_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0 :=
  (by decide +kernel : ∀ t : Fin grid0.N, _)

/-- The rgb window's block at t: rows 256·(t mod 8) + r of batch t / 8. -/
theorem rgb_block (c : Dev nD) (t : Fin cfg0.N) (r : Fin 256) (d : Fin 1024) :
    (iblk m c 0 t : S1x256x1024.Idx → Elt F .f32) (ix3 (0 : Fin 1) r d)
      = (V m c main_arg0 : S8x2048x1024.Idx → Elt F .f32) (ix3 (batch t) (row t r) d) := by
  obtain ⟨e0, e1, e2, -⟩ := win_index_facts t
  show V m c main_arg0 (((cfg0.win 0).blk t).view.emb (ix3 (0 : Fin 1) r d)) = V m c main_arg0 (ix3 (batch t) (row t r) d)
  refine congrArg _ (funext fun a => Fin.ext ?_)
  match a with
  | ⟨0, _⟩ => show win0_0.index t (0 : Fin 3) * 1 + 1 * 0 = t.val / 8; omega
  | ⟨1, _⟩ => show win0_0.index t (1 : Fin 3) * 256 + 1 * r.val = t.val % 8 * 256 + r.val; omega
  | ⟨2, _⟩ => show win0_0.index t (2 : Fin 3) * 1024 + 1 * d.val = d.val; omega

/-- The freq window's block at t: the whole of batch t / 8. -/
theorem freq_block (c : Dev nD) (t : Fin cfg0.N) (n : Fin 2048) (d : Fin 1024) :
    (iblk m c 1 t : S1x2048x1024.Idx → Elt F .f32) (ix3 (0 : Fin 1) n d)
      = (V m c main_arg1 : S8x2048x1024.Idx → Elt F .f32) (ix3 (batch t) n d) := by
  obtain ⟨-, -, -, e0, e1, e2, -⟩ := win_index_facts t
  show V m c main_arg1 (((cfg0.win 1).blk t).view.emb (ix3 (0 : Fin 1) n d)) = V m c main_arg1 (ix3 (batch t) n d)
  refine congrArg _ (funext fun a => Fin.ext ?_)
  match a with
  | ⟨0, _⟩ => show win0_1.index t (0 : Fin 3) * 1 + 1 * 0 = t.val / 8; omega
  | ⟨1, _⟩ => show win0_1.index t (1 : Fin 3) * 2048 + 1 * n.val = n.val; omega
  | ⟨2, _⟩ => show win0_1.index t (2 : Fin 3) * 1024 + 1 * d.val = d.val; omega

/-- The Wq window's block is the whole (converted) array. -/
theorem wq_block (c : Dev nD) (t : Fin cfg0.N) (d e : Fin 1024) :
    (iblk m c 2 t : S1024x1024.Idx → Elt F .bf16) (ix2 d e) = (V m c main_v0 : S1024x1024.Idx → Elt F .bf16) (ix2 d e) := by
  obtain ⟨-, -, -, -, -, -, e0, e1, -⟩ := win_index_facts t
  show V m c main_v0 (((cfg0.win 2).blk t).view.emb (ix2 d e)) = V m c main_v0 (ix2 d e)
  refine congrArg _ (funext fun a => Fin.ext ?_)
  match a with
  | ⟨0, _⟩ => show win0_2.index t (0 : Fin 2) * 1024 + 1 * d.val = d.val; omega
  | ⟨1, _⟩ => show win0_2.index t (1 : Fin 2) * 1024 + 1 * e.val = e.val; omega

/-- The Wk window's block is the whole (converted) array. -/
theorem wk_block (c : Dev nD) (t : Fin cfg0.N) (d e : Fin 1024) :
    (iblk m c 3 t : S1024x1024.Idx → Elt F .bf16) (ix2 d e) = (V m c main_v1 : S1024x1024.Idx → Elt F .bf16) (ix2 d e) := by
  obtain ⟨-, -, -, -, -, -, -, -, e0, e1, -⟩ := win_index_facts t
  show V m c main_v1 (((cfg0.win 3).blk t).view.emb (ix2 d e)) = V m c main_v1 (ix2 d e)
  refine congrArg _ (funext fun a => Fin.ext ?_)
  match a with
  | ⟨0, _⟩ => show win0_3.index t (0 : Fin 2) * 1024 + 1 * d.val = d.val; omega
  | ⟨1, _⟩ => show win0_3.index t (1 : Fin 2) * 1024 + 1 * e.val = e.val; omega

/-- The result window's block at t, read off any contents G of the result array: rows 256·(t mod 8) + r of batch t / 8. -/
theorem result_block (c : Dev nD) (G : Buf (Elt F) ((c : Thread nD τ).loc main_v2)) (t : Fin cfg0.N) (r : Fin 256) (k : Fin 2048) :
    (((cfg0.win 4).blk t).view.read (Elt F) G : S1x256x2048.Idx → Elt F .f32) (ix3 (0 : Fin 1) r k)
      = (G : S8x2048x2048.Idx → Elt F .f32) (ix3 (batch t) (row t r) k) := by
  obtain ⟨-, -, -, -, -, -, -, -, -, -, e0, e1, e2⟩ := win_index_facts t
  show G (((cfg0.win 4).blk t).view.emb (ix3 (0 : Fin 1) r k)) = G (ix3 (batch t) (row t r) k)
  refine congrArg _ (funext fun a => Fin.ext ?_)
  match a with
  | ⟨0, _⟩ => show win0_4.index t (0 : Fin 3) * 1 + 1 * 0 = t.val / 8; omega
  | ⟨1, _⟩ => show win0_4.index t (1 : Fin 3) * 256 + 1 * r.val = t.val % 8 * 256 + r.val; omega
  | ⟨2, _⟩ => show win0_4.index t (2 : Fin 3) * 2048 + 1 * k.val = k.val; omega

/-- An index of the result array is in point t's block iff each coordinate is in the block's range on its axis. -/
theorem mem_result_blk (t : Fin cfg0.N) (i : S8x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v2).slice (win0_4.rect t)).set ↔ _
  rw [View.set_slice_whole, Rect.mem_set_unit]
  exact Iff.rfl

/-- Every index of the result array lies in the block of some point that writes back. -/
theorem result_cover (i : S8x2048x2048.Idx) :
    ∃ t : Fin cfg0.N, (cfg0.win 4).flush t = true ∧ i ∈ ((cfg0.win 4).blk t).view.set := by
  have hN : cfg0.N = 64 := N_0
  have hi0 : (i 0).val < 8 := (i 0).isLt
  have hi1 : (i 1).val < 2048 := (i 1).isLt
  have hi2 : (i 2).val < 2048 := (i 2).isLt
  refine ⟨⟨(i 0).val * 8 + (i 1).val / 256, by omega⟩, flush0_4 _, ?_⟩
  obtain ⟨-, -, -, -, -, -, -, -, -, -, e0, e1, e2⟩ := win_index_facts ⟨(i 0).val * 8 + (i 1).val / 256, by omega⟩
  have f0 : ((i 0).val * 8 + (i 1).val / 256) / 8 = (i 0).val := by omega
  have f1 : ((i 0).val * 8 + (i 1).val / 256) % 8 = (i 1).val / 256 := by omega
  rw [mem_result_blk]
  intro a
  match a with
  | ⟨0, _⟩ =>
    show win0_4.index _ (0 : Fin 3) * 1 ≤ (i 0).val ∧ (i 0).val < win0_4.index _ (0 : Fin 3) * 1 + 1
    rw [e0]; show ((i 0).val * 8 + (i 1).val / 256) / 8 * 1 ≤ (i 0).val ∧ (i 0).val < ((i 0).val * 8 + (i 1).val / 256) / 8 * 1 + 1
    omega
  | ⟨1, _⟩ =>
    show win0_4.index _ (1 : Fin 3) * 256 ≤ (i 1).val ∧ (i 1).val < win0_4.index _ (1 : Fin 3) * 256 + 256
    rw [e1]; show ((i 0).val * 8 + (i 1).val / 256) % 8 * 256 ≤ (i 1).val ∧ (i 1).val < ((i 0).val * 8 + (i 1).val / 256) % 8 * 256 + 256
    omega
  | ⟨2, _⟩ =>
    show win0_4.index _ (2 : Fin 3) * 2048 ≤ (i 2).val ∧ (i 2).val < win0_4.index _ (2 : Fin 3) * 2048 + 2048
    rw [e2]; omega

/-- Consecutive q-tiles of one batch: a point that is not a batch's first has its predecessor's batch. -/
theorem batch_pred (t : Fin cfg0.N) (h : ¬t.val % 8 = 0) (hp : t.val - 1 < cfg0.N) :
    batch (⟨t.val - 1, hp⟩ : Fin cfg0.N) = batch t := by
  apply Fin.ext; show (t.val - 1) / 8 = t.val / 8; omega

end Cert.KernelIdeal.Blocks

/-! ## The converted weights, at the extended reals -/

namespace Cert.KernelIdeal.Blocks

variable (m : (ℓ : Loc nD τ sig) → Buf (Elt Ideal) ℓ)

/-- The format conversion of Wq before the call is the identity on extended reals. -/
theorem wq_array (c : Dev nD) : (V m c main_v0 : S1024x1024.Idx → EReal) = (m ((c : Thread nD τ).loc main_arg3) : S1024x1024.Idx → EReal) := by
  -- the one host operation that writes this array is the narrowing conversion of argument 3
  dsimp only [Gen.V, Gen.hostOps0]
  after_results
  -- and a narrowing conversion is the identity on extended reals, entry by entry
  funext i
  exact truncf_apply (φ := .f32) (ψ := .bf16) _ bitsLt_bf16_f32 i

/-- The format conversion of Wk before the call is the identity on extended reals. -/
theorem wk_array (c : Dev nD) : (V m c main_v1 : S1024x1024.Idx → EReal) = (m ((c : Thread nD τ).loc main_arg4) : S1024x1024.Idx → EReal) := by
  -- the one host operation that writes this array is the narrowing conversion of argument 4
  dsimp only [Gen.V, Gen.hostOps0]
  after_results
  -- and a narrowing conversion is the identity on extended reals, entry by entry
  funext i
  exact truncf_apply (φ := .f32) (ψ := .bf16) _ bitsLt_bf16_f32 i

end Cert.KernelIdeal.Blocks

end
-- ==== Proof.Carried.lean ====
/- What the two carried buffers hold after every grid point.

   Grid point n belongs to batch n / 8.  After the body at point n the key buffer holds the projected keys
   freq_b · Wk of that batch and the value buffer holds freq_b itself: at a batch's first q-tile the body
   stores exactly these (computed from the freq block, which is the whole of batch b), and at the other
   q-tiles it stores nothing, the point before belongs to the same batch, and the buffers keep what they held. -/
import proofs.«112244_j62027917689453_2_alg».proof.Proof.Pieces
import proofs.«112244_j62027917689453_2_alg».proof.Proof.TileValue
import proofs.«112244_j62027917689453_2_alg».proof.Proof.Blocks

set_option maxRecDepth 16384

noncomputable section

open Idealize.ShloMosaic Idealize.ShloMosaic.TcCoe Idealize.SL.Sem
open Idealize.ShloMosaic.ValueIdx
open Cert.KernelIdeal Cert.KernelIdeal.Gen Cert.KernelIdeal.Body Cert.KernelIdeal.Blocks Cert.Attn

namespace Cert.KernelIdeal.Carried

variable (m : (ℓ : Loc nD τ sig) → Buf (Elt Ideal) ℓ)

/-- The projected keys of batch b: freq_b · Wk, as the contents of the key buffer. -/
def keysOf (c : Dev nD) (b : Fin 8) : FVec Ideal S2048x1024 .bf16 := fun j =>
  proj (V m c main_arg1 : S8x2048x1024.Idx → EReal) (V m c main_v1 : S1024x1024.Idx → EReal) b (j 0) (j 1)

/-- The values of batch b: freq_b, as the contents of the value buffer. -/
def valuesOf (c : Dev nD) (b : Fin 8) : FVec Ideal S2048x1024 .bf16 := fun j =>
  (V m c main_arg1 : S8x2048x1024.Idx → EReal) (ix3 b (j 0) (j 1))

/-- The keys computed from a point's freq and Wk blocks are its batch's projected keys. -/
theorem keys_of_block (c : Dev nD) (t : Fin cfg0.N) :
    k0_pay3 (F := Ideal) (iblk m c 1 t) (iblk m c 3 t) = keysOf m c (batch t) := by
  funext j
  obtain ⟨p, q, rfl⟩ : ∃ (p : Fin 2048) (q : Fin 1024), j = ix2 p q := ⟨j 0, j 1, eq_ix2 j⟩
  refine (keys_tile (iblk m c 1 t) (iblk m c 3 t) p q).trans ?_
  show _ = proj (V m c main_arg1 : S8x2048x1024.Idx → EReal) (V m c main_v1 : S1024x1024.Idx → EReal) (batch t) p q
  unfold proj
  exact Finset.sum_congr rfl fun d _ => congrArg₂ (· * ·) (freq_block m c t p d) (wk_block m c t d q)

/-- The values taken from a point's freq block are its batch's values. -/
theorem values_of_block (c : Dev nD) (t : Fin cfg0.N) :
    k0_pay4 (F := Ideal) (iblk m c 1 t) = valuesOf m c (batch t) := by
  funext j
  obtain ⟨p, q, rfl⟩ : ∃ (p : Fin 2048) (q : Fin 1024), j = ix2 p q := ⟨j 0, j 1, eq_ix2 j⟩
  exact (values_tile (iblk m c 1 t) p q).trans (freq_block m c t p q)

/-- At a batch's first q-tile the key buffer is left holding that batch's projected keys, -/
theorem first_tile_keys (c : Dev nD) (t : Fin cfg0.N) (h0 : t.val % 8 = 0) :
    (outsAt0 m c t.val t.isLt).2.1 = keysOf m c (batch t) := by
  rw [outsAt0_A m c t h0]
  dsimp only
  exact (keys_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)).trans (keys_of_block m c t)

/-- and the value buffer that batch's values. -/
theorem first_tile_values (c : Dev nD) (t : Fin cfg0.N) (h0 : t.val % 8 = 0) :
    (outsAt0 m c t.val t.isLt).2.2 = valuesOf m c (batch t) := by
  rw [outsAt0_A m c t h0]
  dsimp only
  exact (values_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)).trans (values_of_block m c t)

/-- At the other q-tiles the buffers keep what the point before left. -/
theorem later_tile (c : Dev nD) (t : Fin cfg0.N) (h0 : ¬t.val % 8 = 0) :
    (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0]
  exact ⟨rfl, rfl⟩

/-- THE INVARIANT, by induction on the point: after point n the carried buffers hold the keys and the values
    of batch n / 8. -/
theorem carried (c : Dev nD) : ∀ (n : ℕ) (hn : n < cfg0.N),
    (outsAt0 m c n hn).2.1 = keysOf m c (batch ⟨n, hn⟩) ∧ (outsAt0 m c n hn).2.2 = valuesOf m c (batch ⟨n, hn⟩) := by
  intro n
  induction n with
  | zero => exact fun hn => ⟨first_tile_keys m c ⟨0, hn⟩ rfl, first_tile_values m c ⟨0, hn⟩ rfl⟩
  | succ n ih =>
    intro hn
    by_cases h0 : (n + 1) % 8 = 0
    · exact ⟨first_tile_keys m c ⟨n + 1, hn⟩ h0, first_tile_values m c ⟨n + 1, hn⟩ h0⟩
    · have hb : batch (⟨n + 1, hn⟩ : Fin cfg0.N) = batch ⟨n, Nat.lt_of_succ_lt hn⟩ :=
        Fin.ext (by show (n + 1) / 8 = n / 8; omega)
      have hl := later_tile m c ⟨n + 1, hn⟩ h0
      have hp := ih (Nat.lt_of_succ_lt hn)
      rw [hb]
      exact ⟨hl.1.trans hp.1, hl.2.trans hp.2⟩

end Cert.KernelIdeal.Carried

end
-- ==== Proof.Halves.lean ====
/- The result read in its two halves: a column below 1024 is rgb's, a column 1024 + d is half the
   attention output's column d. -/
import proofs.«112244_j62027917689453_2_alg».proof.Proof.Spec

noncomputable section

namespace Cert.Attn

open Idealize.ShloMosaic Idealize.ShloMosaic.ValueIdx

/-- The left half: column k = d < 1024 of the result is rgb's column d. -/
theorem result_left (rgb freq : Tok.Idx → EReal) (wq wk : Wt.Idx → EReal) (b : Fin 8) (n : Fin 2048) (d : Fin 1024)
    (k : Fin 2048) (hk : k.val = d.val) :
    result rgb freq wq wk (ix3 b n k) = rgb (ix3 b n d) := by
  unfold result
  have h : ((ix3 b n k : Res.Idx) 2).val < 1024 := by show k.val < 1024; omega
  rw [dif_pos h]
  exact congrArg rgb (funext fun a => Fin.ext (by
    match a with
    | ⟨0, _⟩ => rfl
    | ⟨1, _⟩ => rfl
    | ⟨2, _⟩ => exact hk))

/-- The right half: column k = 1024 + d of the result is half the attention output's column d. -/
theorem result_right (rgb freq : Tok.Idx → EReal) (wq wk : Wt.Idx → EReal) (b : Fin 8) (n : Fin 2048) (d : Fin 1024)
    (k : Fin 2048) (hk : k.val = 1024 + d.val) :
    result rgb freq wq wk (ix3 b n k) = Ideal.ofBits .f32 0x3F000000#32 * attend rgb freq wq wk b n d := by
  unfold result
  have h : ¬((ix3 b n k : Res.Idx) 2).val < 1024 := by show ¬k.val < 1024; omega
  rw [dif_neg h]
  refine congrArg (fun z => Ideal.ofBits .f32 0x3F000000#32 * attend rgb freq wq wk b n z) (Fin.ext ?_)
  show k.val - 1024 = d.val
  omega

end Cert.Attn

end
-- ==== Proof.BlockHalves.lean ====
/- A point's output block, characterised by its two halves.

   The block is two stores side by side: columns 0 … 1023 hold the rgb tile, columns 1024 … 2047 half the
   attention output.  So the block IS any function B of the block index that agrees with the rgb tile on the
   left columns and with the attention tile on the right ones. -/
import proofs.«112244_j62027917689453_2_alg».proof.Proof.Pieces
import proofs.«112244_j62027917689453_2_alg».proof.Proof.TileValue

set_option maxRecDepth 16384

noncomputable section

open Idealize.ShloMosaic Idealize.ShloMosaic.TcCoe Idealize.SL.Sem
open Idealize.ShloMosaic.ValueIdx Idealize.ShloMosaic.Tactic
open Cert.KernelIdeal Cert.KernelIdeal.Gen Cert.Attn

namespace Cert.KernelIdeal.Body

/-- The two stores tile the block along its columns, so a function that agrees with each store's payload on that
    store's columns is the block. -/
theorem block_of_halves (x0 : Vec Ideal S1x256x1024 .f32) (x2 : FVec Ideal S1024x1024 .bf16) (K V : FVec Ideal S2048x1024 .bf16)
    (B : S1x256x2048.Idx → EReal)
    (hl : ∀ (r : Fin 256) (d : Fin 1024) (k : Fin 2048), k.val = d.val →
      B (ix3 (0 : Fin 1) r k) = x0 (ix3 (0 : Fin 1) r d))
    (hr : ∀ (r : Fin 256) (d : Fin 1024) (k : Fin 2048), k.val = 1024 + d.val →
      B (ix3 (0 : Fin 1) r k) = Ideal.ofBits .f32 0x3F000000#32 * ∑ m : Fin 2048, softmaxRow (fun m : Fin 2048 => (∑ e : Fin 1024, (∑ d' : Fin 1024, x0 (ix3 (0 : Fin 1) r d') * x2 (ix2 d' e)) * K (ix2 m e)) * Ideal.ofBits .f32 0x3D000000#32) m * V (ix2 m d)) :
    block (F := Ideal) x0 x2 K V = B := by
  funext y
  unfold block
  refine View.canon_apply_of_pieces (Val := Elt Ideal) (e := .f32) (S := S1x256x2048) B _ (fun p hp x => ?_) y ?_
  · -- each of the two stores' payloads is B on the store's rectangle
    simp only [List.mem_cons, List.mem_singleton, List.not_mem_nil, or_false] at hp
    rcases hp with rfl | rfl
    · -- the right half: local column d is column 1024 + d of the block
      obtain ⟨u, r, d, rfl⟩ : ∃ (u : Fin 1) (r : Fin 256) (d : Fin 1024), x = ix3 u r d := ⟨x 0, x 1, x 2, eq_ix3 x⟩
      obtain rfl : u = 0 := Subsingleton.elim _ _
      have hd : d.val < 1024 := d.isLt
      have he : (Rect.unit (s := S1x256x2048) ![0, 0, 1024] ![1, 256, 1024] inb_S1x256x2048_S1x256x1024_0_0_1024).emb (ix3 (0 : Fin 1) r d)
          = ix3 (0 : Fin 1) r (⟨1024 + d.val, by omega⟩ : Fin 2048) := by
        funext a; apply Fin.ext
        match a with
        | ⟨0, _⟩ => rfl
        | ⟨1, _⟩ => show 0 + 1 * r.val = r.val; omega
        | ⟨2, _⟩ => show 1024 + 1 * d.val = 1024 + d.val; omega
      exact (attention_tile x0 x2 K V r d).trans ((hr r d ⟨1024 + d.val, by omega⟩ rfl).symm.trans (congrArg B he.symm))
    · -- the left half: local column d is column d of the block
      obtain ⟨u, r, d, rfl⟩ : ∃ (u : Fin 1) (r : Fin 256) (d : Fin 1024), x = ix3 u r d := ⟨x 0, x 1, x 2, eq_ix3 x⟩
      obtain rfl : u = 0 := Subsingleton.elim _ _
      have hd : d.val < 1024 := d.isLt
      have he : (Rect.unit (s := S1x256x2048) ![0, 0, 0] ![1, 256, 1024] inb_S1x256x2048_S1x256x1024_0_0_0).emb (ix3 (0 : Fin 1) r d)
          = ix3 (0 : Fin 1) r (⟨d.val, by omega⟩ : Fin 2048) := by
        funext a; apply Fin.ext
        match a with
        | ⟨0, _⟩ => rfl
        | ⟨1, _⟩ => show 0 + 1 * r.val = r.val; omega
        | ⟨2, _⟩ => show 0 + 1 * d.val = d.val; omega
      exact (rgb_tile x0 r d).trans ((hl r d ⟨d.val, by omega⟩ rfl).symm.trans (congrArg B he.symm))
  · -- every column is below 1024 or from 1024 on: one of the two rectangles holds the index
    have h0 : (y 0).val < 1 := (y 0).isLt
    have h1 : (y 1).val < 256 := (y 1).isLt
    have h2 : (y 2).val < 2048 := (y 2).isLt
    by_cases h : (y 2).val < 1024
    · refine ⟨(⟨Rect.unit ![0, 0, 0] ![1, 256, 1024] inb_S1x256x2048_S1x256x1024_0_0_0, k0_pay6 x0⟩ : View.Piece (Elt Ideal) S1x256x2048 .f32),
        List.mem_cons_of_mem _ List.mem_cons_self,
        (Rect.mem_set_unit (inb := inb_S1x256x2048_S1x256x1024_0_0_0)).mpr fun a => ?_⟩
      match a with
      | ⟨0, _⟩ => show 0 ≤ (y 0).val ∧ (y 0).val < 0 + 1; omega
      | ⟨1, _⟩ => show 0 ≤ (y 1).val ∧ (y 1).val < 0 + 256; omega
      | ⟨2, _⟩ => show 0 ≤ (y 2).val ∧ (y 2).val < 0 + 1024; omega
    · refine ⟨(⟨Rect.unit ![0, 0, 1024] ![1, 256, 1024] inb_S1x256x2048_S1x256x1024_0_0_1024, k0_pay1 (k0_pay7 x0 x2 K V)⟩ : View.Piece (Elt Ideal) S1x256x2048 .f32),
        List.mem_cons_self, (Rect.mem_set_unit (inb := inb_S1x256x2048_S1x256x1024_0_0_1024)).mpr fun a => ?_⟩
      match a with
      | ⟨0, _⟩ => show 0 ≤ (y 0).val ∧ (y 0).val < 0 + 1; omega
      | ⟨1, _⟩ => show 0 ≤ (y 1).val ∧ (y 1).val < 0 + 256; omega
      | ⟨2, _⟩ => show 1024 ≤ (y 2).val ∧ (y 2).val < 1024 + 1024; omega

end Cert.KernelIdeal.Body

end
-- ==== Proof.Final.lean ====
/- The kernel's result array after the run.

   What grid point t writes back is rows 256·(t mod 8) … of batch t / 8 of the stated result: its left
   half is the rgb tile, which is those rows of rgb; its right half is half the attention output of those rows
   against the carried keys and values, which are the keys and values of batch t / 8 by the invariant.  The
   64 blocks cover the result array, so the array ends holding the stated result. -/
import proofs.«112244_j62027917689453_2_alg».proof.Proof.Carried
import proofs.«112244_j62027917689453_2_alg».proof.Proof.Halves
import proofs.«112244_j62027917689453_2_alg».proof.Proof.BlockHalves
import proofs.«112244_j62027917689453_2_alg».proof.Proof.Gen.KernelIdeal.Value

set_option maxRecDepth 16384

noncomputable section

open Idealize.ShloMosaic Idealize.ShloMosaic.TcCoe Idealize.SL.Sem
open Idealize.ShloMosaic.ValueIdx Idealize.ShloMosaic.Pipeline
open Cert.KernelIdeal Cert.KernelIdeal.Gen Cert.KernelIdeal.Body Cert.KernelIdeal.Blocks Cert.KernelIdeal.Carried Cert.Attn

namespace Cert.KernelIdeal.Final

variable (m : (ℓ : Loc nD τ sig) → Buf (Elt Ideal) ℓ) (ρ : Dev nD → PrngReg)

/-- The stated result of the arrays the region finds, as contents of the result array. -/
def resultArray (c : Dev nD) : Buf (Elt Ideal) ((c : Thread nD τ).loc main_v2) :=
  result (V m c main_arg0 : S8x2048x1024.Idx → EReal) (V m c main_arg1 : S8x2048x1024.Idx → EReal)
    (V m c main_v0 : S1024x1024.Idx → EReal) (V m c main_v1 : S1024x1024.Idx → EReal)

/-- Point t's block of the stated result, as a vector of the block's shape. -/
def resultBlock (c : Dev nD) (t : Fin cfg0.N) : S1x256x2048.Idx → EReal :=
  ((cfg0.win 4).blk t).view.read (Elt Ideal) (resultArray m c)

/-- It is rows 256·(t mod 8) + r of batch t / 8 of the stated result. -/
theorem resultBlock_apply (c : Dev nD) (t : Fin cfg0.N) (r : Fin 256) (k : Fin 2048) :
    resultBlock m c t (ix3 (0 : Fin 1) r k)
      = result (V m c main_arg0 : S8x2048x1024.Idx → EReal) (V m c main_arg1 : S8x2048x1024.Idx → EReal)
          (V m c main_v0 : S1024x1024.Idx → EReal) (V m c main_v1 : S1024x1024.Idx → EReal) (ix3 (batch t) (row t r) k) :=
  result_block c (resultArray m c) t r k

/-- Its left columns are the rgb rows: any tile x0 that holds those rows agrees with it there. -/
theorem left_half (c : Dev nD) (t : Fin cfg0.N) (x0 : Vec Ideal S1x256x1024 .f32)
    (hx0 : ∀ (r : Fin 256) (d : Fin 1024), x0 (ix3 (0 : Fin 1) r d) = (V m c main_arg0 : S8x2048x1024.Idx → EReal) (ix3 (batch t) (row t r) d))
    (r : Fin 256) (d : Fin 1024) (k : Fin 2048) (hk : k.val = d.val) :
    resultBlock m c t (ix3 (0 : Fin 1) r k) = x0 (ix3 (0 : Fin 1) r d) := by
  refine (resultBlock_apply m c t r k).trans ?_
  refine Eq.trans ?_ (hx0 r d).symm
  exact result_left _ _ _ _ (batch t) (row t r) d k hk

/-- Its right columns are half the attention output of those rows against the batch's keys and values. -/
theorem right_half (c : Dev nD) (t : Fin cfg0.N) (x0 : Vec Ideal S1x256x1024 .f32) (x2 : FVec Ideal S1024x1024 .bf16)
    (hx0 : ∀ (r : Fin 256) (d : Fin 1024), x0 (ix3 (0 : Fin 1) r d) = (V m c main_arg0 : S8x2048x1024.Idx → EReal) (ix3 (batch t) (row t r) d))
    (hx2 : ∀ (d e : Fin 1024), x2 (ix2 d e) = (V m c main_v0 : S1024x1024.Idx → EReal) (ix2 d e))
    (r : Fin 256) (d : Fin 1024) (k : Fin 2048) (hk : k.val = 1024 + d.val) :
    resultBlock m c t (ix3 (0 : Fin 1) r k)
      = Ideal.ofBits .f32 0x3F000000#32 * ∑ m' : Fin 2048, softmaxRow (fun m' : Fin 2048 => (∑ e : Fin 1024, (∑ d' : Fin 1024, x0 (ix3 (0 : Fin 1) r d') * x2 (ix2 d' e)) * keysOf m c (batch t) (ix2 m' e)) * Ideal.ofBits .f32 0x3D000000#32) m' * valuesOf m c (batch t) (ix2 m' d) := by
  refine (resultBlock_apply m c t r k).trans ?_
  refine (result_right _ _ _ _ (batch t) (row t r) d k hk).trans ?_
  simp only [hx0, hx2]
  rfl

/-- The block a point leaves, given its batch's keys and values and tiles holding its rgb rows and Wq, is its
    block of the stated result. -/
theorem block_eq (c : Dev nD) (t : Fin cfg0.N) (x0 : Vec Ideal S1x256x1024 .f32) (x2 : FVec Ideal S1024x1024 .bf16)
    (hx0 : ∀ (r : Fin 256) (d : Fin 1024), x0 (ix3 (0 : Fin 1) r d) = (V m c main_arg0 : S8x2048x1024.Idx → EReal) (ix3 (batch t) (row t r) d))
    (hx2 : ∀ (d e : Fin 1024), x2 (ix2 d e) = (V m c main_v0 : S1024x1024.Idx → EReal) (ix2 d e)) :
    block (F := Ideal) x0 x2 (keysOf m c (batch t)) (valuesOf m c (batch t)) = resultBlock m c t :=
  block_of_halves x0 x2 (keysOf m c (batch t)) (valuesOf m c (batch t)) (resultBlock m c t)
    (fun r d k hk => left_half m c t x0 hx0 r d k hk) (fun r d k hk => right_half m c t x0 x2 hx0 hx2 r d k hk)

/-- WHAT POINT t WRITES BACK is its block of the stated result. -/
theorem flushed_eq (c : Dev nD) (t : Fin cfg0.N) :
    (dats m 0 c).flushed 4 t = ((cfg0.win 4).blk t).view.read (Elt Ideal) (resultArray m c) := by
  by_cases h0 : t.val % 8 = 0
  · rw [Cert.KernelIdeal.Value.flushed4_A m c t h0,
      block_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t),
      keys_of_block m c t, values_of_block m c t]
    funext y
    exact congrFun (block_eq m c t (iblk m c 0 t) (iblk m c 2 t) (rgb_block m c t) (wq_block m c t)) y
  · have hc := carried m c (t.val - 1) (Nat.lt_of_le_of_lt (Nat.sub_le _ _) t.isLt)
    rw [Cert.KernelIdeal.Value.flushed4_B m c t h0,
      block_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t) _ _,
      hc.1, hc.2, batch_pred t h0 _]
    funext y
    exact congrFun (block_eq m c t (iblk m c 0 t) (iblk m c 2 t) (rgb_block m c t) (wq_block m c t)) y

/-- The result array after the run is the stated result: every index lies in some point's block. -/
theorem final (c : Dev nD) : (dats m 0 c).arrAt 4 cfg0.N = resultArray m c :=
  (dats m 0 c).arrAt_eq_of_cover 4 (resultArray m c) (fun t _ => flushed_eq m c t) (fun i => result_cover i)

/-- The run, read: the result array at the stated result of the arrays the region finds, the arguments unchanged. -/
theorem run : θ_run defs (onTc (τ := τ) (main (F := Ideal))) ⟨m, fun _ => 0, ρ⟩ fun r => ∀ c : Dev nD,
      r.2.mem ((c : Thread nD τ).loc main_v2) = resultArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

/-- The stated result in terms of the arguments themselves: the arrays the region finds are the arguments, the two
    weights through a format conversion that is the identity on extended reals. -/
theorem resultArray_eq (c : Dev nD) : resultArray m c
    = result (m ((c : Thread nD τ).loc main_arg0) : S8x2048x1024.Idx → EReal) (m ((c : Thread nD τ).loc main_arg1) : S8x2048x1024.Idx → EReal)
        (m ((c : Thread nD τ).loc main_arg3) : S1024x1024.Idx → EReal) (m ((c : Thread nD τ).loc main_arg4) : S1024x1024.Idx → EReal) := by
  unfold resultArray
  rw [wq_array m c, wk_array m c, V_main_arg0 m c, V_main_arg1 m c]

end Cert.KernelIdeal.Final

end
-- ==== Proof.RefIsResult.lean ====
/- The reference program's last stage is scaled dot-product attention, as stated in Spec.lean.

   Over the extended reals, with every operation exact, the reference computes stage by stage
     q = rgb · Wq and k = freq · Wk                      (sums over the 1024 features),
     s[b,n,m] = (Σ_e q[b,n,e] · k[b,m,e]) / sqrt 1024    (= the sum times 1/32),
     mx[b,n]  = max (−∞, max_m s[b,n,m])                 (a fold of max from −∞, and max with −∞ once more),
     e[b,n,m] = exp (s[b,n,m] − mx[b,n]),
     a[b,n,m] = e[b,n,m] / (0 + Σ_m' e[b,n,m']),
     o[b,n,d] = Σ_m a[b,n,m] · freq[b,m,d],
   and joins rgb and (1/2) · o along the last axis. Each lemma below reads one stage at an index given by its
   coordinates and identifies it with the corresponding function of Spec.lean; the only facts used beyond
   unfolding are: dividing by sqrt 1024 is multiplying by 1/32, max a (fold max a s) = fold max a s, 0 + x = x,
   and a joined array reads its first piece below column 1024 and its second piece, 1024 columns back, from
   there on. The index functions of the generated stage lemmas agree with the coordinate constructors
   coordinate by coordinate. -/
import proofs.«112244_j62027917689453_2_alg».proof.Proof.Gen.ReferenceIdeal.Read
import proofs.«112244_j62027917689453_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Read

/-- The query projection stage at (b, n, e): Σ_d rgb[b,n,d] · Wq[d,e]. -/
theorem v0_ix (x0 : (⟨S8x2048x1024, .f32⟩ : BufTy).Contents (Elt Ideal)) (x3 : (⟨S1024x1024, .f32⟩ : BufTy).Contents (Elt Ideal))
    (b : Fin 8) (n : Fin 2048) (e : Fin 1024) :
    val_main_v0 (F := Ideal) x0 x3 (ix3 b n e) = Cert.Attn.proj x0 x3 b n e := by
  rw [val_main_v0_apply]
  unfold Cert.Attn.proj
  refine Finset.sum_congr rfl fun k _ => ?_
  have e1 : lidx_main_v0 (ix3 b n e) k = ix3 b n k :=
    funext fun a => Fin.ext (by match a with | ⟨0, _⟩ => rfl | ⟨1, _⟩ => rfl | ⟨2, _⟩ => rfl)
  have e2 : ridx_main_v0 (ix3 b n e) k = ix2 k e :=
    funext fun a => Fin.ext (by match a with | ⟨0, _⟩ => rfl | ⟨1, _⟩ => rfl)
  rw [e1, e2]

/-- The key projection stage at (b, n, e): Σ_d freq[b,n,d] · Wk[d,e]. -/
theorem v1_ix (x1 : (⟨S8x2048x1024, .f32⟩ : BufTy).Contents (Elt Ideal)) (x4 : (⟨S1024x1024, .f32⟩ : BufTy).Contents (Elt Ideal))
    (b : Fin 8) (n : Fin 2048) (e : Fin 1024) :
    val_main_v1 (F := Ideal) x1 x4 (ix3 b n e) = Cert.Attn.proj x1 x4 b n e := by
  rw [val_main_v1_apply]
  unfold Cert.Attn.proj
  refine Finset.sum_congr rfl fun k _ => ?_
  have e1 : lidx_main_v1 (ix3 b n e) k = ix3 b n k :=
    funext fun a => Fin.ext (by match a with | ⟨0, _⟩ => rfl | ⟨1, _⟩ => rfl | ⟨2, _⟩ => rfl)
  have e2 : ridx_main_v1 (ix3 b n e) k = ix2 k e :=
    funext fun a => Fin.ext (by match a with | ⟨0, _⟩ => rfl | ⟨1, _⟩ => rfl)
  rw [e1, e2]

/-- The scaled score stage at (b, n, m): the contraction of the two projections over the feature axis, divided by
    sqrt 1024, which is the product with 1/32. -/
theorem v5_ix (x0 x1 : (⟨S8x2048x1024, .f32⟩ : BufTy).Contents (Elt Ideal)) (x3 x4 : (⟨S1024x1024, .f32⟩ : BufTy).Contents (Elt Ideal))
    (b : Fin 8) (n m : Fin 2048) :
    val_main_v5 (F := Ideal) x0 x1 x3 x4 (ix3 b n m) = Cert.Attn.score x0 x1 x3 x4 b n m := by
  rw [val_main_v5_apply, val_main_v2_apply, val_main_v4_apply, val_main_v3_apply, val_main_cst_apply]
  simp only [Ideal.hostDivf_def, Ideal.hostUnary_sqrt_def, Ideal.ofBits_def]
  rw [Cert.Attn.div_sqrt_1024]
  unfold Cert.Attn.score
  congr 1
  refine Finset.sum_congr rfl fun k _ => ?_
  have e1 : lidx_main_v2 (ix3 b n m) k = ix3 b n k :=
    funext fun a => Fin.ext (by match a with | ⟨0, _⟩ => rfl | ⟨1, _⟩ => rfl | ⟨2, _⟩ => rfl)
  have e2 : ridx_main_v2 (ix3 b n m) k = ix3 b m k :=
    funext fun a => Fin.ext (by match a with | ⟨0, _⟩ => rfl | ⟨1, _⟩ => rfl | ⟨2, _⟩ => rfl)
  rw [e1, e2, v0_ix, v1_ix]

/-- Dropping the last axis of an 8 × 2048 × 2048 array leaves an 8 × 2048 one. -/
theorem reduces_d2 : S8x2048x2048.Reduces [2] S8x2048 := by decide

/-- The reduced index (b, n) with the coordinate k put back on the last axis is (b, n, k). -/
theorem lift_ix3 (b : Fin 8) (n : Fin 2048) (k : Fin (S8x2048x2048.size 2)) :
    reduces_d2.lift (ix2 b n) k = ix3 b n (⟨k.val, k.isLt⟩ : Fin 2048) := by
  funext c; apply Fin.ext
  match c with
  | ⟨0, _⟩ => rfl
  | ⟨1, _⟩ => rfl
  | ⟨2, _⟩ => rfl

/-- The max-reduce over the last axis at (b, n) is the fold of max over the row of scores, from −∞. -/
theorem v6_ix (x0 x1 : (⟨S8x2048x1024, .f32⟩ : BufTy).Contents (Elt Ideal)) (x3 x4 : (⟨S1024x1024, .f32⟩ : BufTy).Contents (Elt Ideal))
    (b : Fin 8) (n : Fin 2048) :
    val_main_v6 (F := Ideal) x0 x1 x3 x4 (ix2 b n) = Cert.Attn.rowMax (Cert.Attn.score x0 x1 x3 x4 b n) := by
  unfold val_main_v6
  rw [Host.reduce_eq_fold_single FloatOps.maximumf _ _ Gen.reducesTo_S8x2048x2048_S8x2048_d2 reduces_d2 Gen.h_S_]
  rw [val_main_cst_0_apply]
  unfold Cert.Attn.rowMax
  have hf : (val_main_v5 (F := Ideal) x0 x1 x3 x4 ∘ reduces_d2.lift (ix2 b n))
      = fun m : Fin 2048 => Cert.Attn.score x0 x1 x3 x4 b n m := funext fun k => by
    show val_main_v5 (F := Ideal) x0 x1 x3 x4 (reduces_d2.lift (ix2 b n) k) = _
    rw [lift_ix3, v5_ix]
    rfl
  exact congrArg (fun f => Finset.fold max (Ideal.ofBits .f32 0xFF800000#32) f (Finset.univ : Finset (Fin 2048))) hf

/-- Taking the maximum with −∞ once more changes nothing: the row maximum stage at (b, n). -/
theorem v8_ix (x0 x1 : (⟨S8x2048x1024, .f32⟩ : BufTy).Contents (Elt Ideal)) (x3 x4 : (⟨S1024x1024, .f32⟩ : BufTy).Contents (Elt Ideal))
    (b : Fin 8) (n : Fin 2048) :
    val_main_v8 (F := Ideal) x0 x1 x3 x4 (ix2 b n) = Cert.Attn.rowMax (Cert.Attn.score x0 x1 x3 x4 b n) := by
  rw [val_main_v8_apply, val_main_v7_apply, val_main_cst_1_apply, v6_ix]
  simp only [Ideal.maximumf_def, Ideal.ofBits_def]
  exact Cert.Attn.max_init_fold _ _

/-- The shifted exponential stage at (b, n, m): the row maximum is broadcast back along the last axis. -/
theorem v12_ix (x0 x1 : (⟨S8x2048x1024, .f32⟩ : BufTy).Contents (Elt Ideal)) (x3 x4 : (⟨S1024x1024, .f32⟩ : BufTy).Contents (Elt Ideal))
    (b : Fin 8) (n m : Fin 2048) :
    val_main_v12 (F := Ideal) x0 x1 x3 x4 (ix3 b n m) = Cert.Attn.expRow (Cert.Attn.score x0 x1 x3 x4 b n) m := by
  rw [val_main_v12_apply, val_main_v11_apply, val_main_v10_apply, val_main_v9_apply]
  have e : idx_main_v9 (idx_main_v10 (ix3 b n m)) = ix2 b n :=
    funext fun a => Fin.ext (by match a with | ⟨0, _⟩ => rfl | ⟨1, _⟩ => rfl)
  rw [e, v8_ix, v5_ix]
  simp only [Ideal.hostUnary_exp_def, Ideal.subf_def]
  rfl

/-- The row sum stage at (b, n): zero plus the sum of the row's shifted exponentials. -/
theorem v13_ix (x0 x1 : (⟨S8x2048x1024, .f32⟩ : BufTy).Contents (Elt Ideal)) (x3 x4 : (⟨S1024x1024, .f32⟩ : BufTy).Contents (Elt Ideal))
    (b : Fin 8) (n : Fin 2048) :
    val_main_v13 (F := Ideal) x0 x1 x3 x4 (ix2 b n)
      = ∑ m' : Fin 2048, Cert.Attn.expRow (Cert.Attn.score x0 x1 x3 x4 b n) m' := by
  rw [val_main_v13_apply, val_main_cst_2_apply]
  simp only [Ideal.ofBits_def]
  rw [Ideal.ofBits_zero_f32, zero_add]
  refine Finset.sum_congr rfl fun k _ => ?_
  have e : idx_main_v13 (ix2 b n) k = ix3 b n k :=
    funext fun a => Fin.ext (by match a with | ⟨0, _⟩ => rfl | ⟨1, _⟩ => rfl | ⟨2, _⟩ => rfl)
  rw [e, v12_ix]

/-- The softmax stage at (b, n, m): the shifted exponential over the row sum, broadcast back along the last axis. -/
theorem v16_ix (x0 x1 : (⟨S8x2048x1024, .f32⟩ : BufTy).Contents (Elt Ideal)) (x3 x4 : (⟨S1024x1024, .f32⟩ : BufTy).Contents (Elt Ideal))
    (b : Fin 8) (n m : Fin 2048) :
    val_main_v16 (F := Ideal) x0 x1 x3 x4 (ix3 b n m) = Cert.Attn.softmaxRow (Cert.Attn.score x0 x1 x3 x4 b n) m := by
  rw [val_main_v16_apply, val_main_v15_apply, val_main_v14_apply]
  have e : idx_main_v14 (idx_main_v15 (ix3 b n m)) = ix2 b n :=
    funext fun a => Fin.ext (by match a with | ⟨0, _⟩ => rfl | ⟨1, _⟩ => rfl)
  rw [e, v13_ix, v12_ix]
  simp only [Ideal.hostDivf_def]
  rfl

/-- The attention stage at (b, n, d): the softmax row contracted with the raw freq rows. -/
theorem v17_ix (x0 x1 : (⟨S8x2048x1024, .f32⟩ : BufTy).Contents (Elt Ideal)) (x3 x4 : (⟨S1024x1024, .f32⟩ : BufTy).Contents (Elt Ideal))
    (b : Fin 8) (n : Fin 2048) (d : Fin 1024) :
    val_main_v17 (F := Ideal) x0 x1 x3 x4 (ix3 b n d) = Cert.Attn.attend x0 x1 x3 x4 b n d := by
  rw [val_main_v17_apply]
  unfold Cert.Attn.attend
  refine Finset.sum_congr rfl fun k _ => ?_
  have e1 : lidx_main_v17 (ix3 b n d) k = ix3 b n k :=
    funext fun a => Fin.ext (by match a with | ⟨0, _⟩ => rfl | ⟨1, _⟩ => rfl | ⟨2, _⟩ => rfl)
  have e2 : ridx_main_v17 (ix3 b n d) k = ix3 b k d :=
    funext fun a => Fin.ext (by match a with | ⟨0, _⟩ => rfl | ⟨1, _⟩ => rfl | ⟨2, _⟩ => rfl)
  rw [e1, e2, v16_ix]

/-- The scaled attention stage at (b, n, d): one half times the attention output. -/
theorem v19_ix (x0 x1 : (⟨S8x2048x1024, .f32⟩ : BufTy).Contents (Elt Ideal)) (x3 x4 : (⟨S1024x1024, .f32⟩ : BufTy).Contents (Elt Ideal))
    (b : Fin 8) (n : Fin 2048) (d : Fin 1024) :
    val_main_v19 (F := Ideal) x0 x1 x3 x4 (ix3 b n d)
      = Ideal.ofBits .f32 0x3F000000#32 * Cert.Attn.attend x0 x1 x3 x4 b n d := by
  rw [val_main_v19_apply, val_main_v18_apply, val_main_cst_3_apply, v17_ix]
  simp only [Ideal.mulf_def, Ideal.ofBits_def]

/-- The reference's last stage is the stated result: along the last axis the first 1024 columns are rgb and the
    last 1024 are one half of the attention output, the column index less 1024. -/
theorem stage_eq_result (x0 x1 : (⟨S8x2048x1024, .f32⟩ : BufTy).Contents (Elt Ideal)) (x3 x4 : (⟨S1024x1024, .f32⟩ : BufTy).Contents (Elt Ideal)) :
    Cert.ReferenceIdeal.Read.val_main_v20 (F := Ideal) x0 x1 x3 x4 = Cert.Attn.result x0 x1 x3 x4 := by
  funext i
  unfold val_main_v20
  show _ = (if h : (i 2).val < 1024 then x0 (ix3 (i 0) (i 1) ⟨(i 2).val, h⟩)
    else Ideal.ofBits .f32 0x3F000000#32 *
      Cert.Attn.attend x0 x1 x3 x4 (i 0) (i 1) ⟨(i 2).val - 1024, by have h2 : (i 2).val < 2048 := (i 2).isLt; omega⟩)
  by_cases h : (i 2).val < 1024
  · rw [dif_pos h]
    exact concatenate_pair_apply_left (2 : Fin 3) x0 (val_main_v19 (F := Ideal) x0 x1 x3 x4) Gen.concatenates_S8x2048x1024_S8x2048x1024_S8x2048x2048_d2 i rfl
      (ix3 (i 0) (i 1) (⟨(i 2).val, h⟩ : Fin 1024))
      (fun c => by match c with | ⟨0, _⟩ => rfl | ⟨1, _⟩ => rfl | ⟨2, _⟩ => rfl)
  · rw [dif_neg h]
    have h2 : (i 2).val < 2048 := (i 2).isLt
    rw [concatenate_pair_apply_right (2 : Fin 3) x0 (val_main_v19 (F := Ideal) x0 x1 x3 x4) Gen.concatenates_S8x2048x1024_S8x2048x1024_S8x2048x2048_d2 i rfl rfl
      (ix3 (i 0) (i 1) (⟨(i 2).val - 1024, by omega⟩ : Fin 1024))
      (fun c hc => by
        match c with
        | ⟨0, _⟩ => rfl
        | ⟨1, _⟩ => rfl
        | ⟨2, _⟩ => exact absurd rfl hc)
      (by show (i 2).val - 1024 + 1024 = (i 2).val; omega)]
    exact v19_ix x0 x1 x3 x4 (i 0) (i 1) _

end Cert.ReferenceIdeal.RefValue

end
-- ==== Proof.lean ====
/- The certificate of a fused attention kernel against its jnp reference, over the extended reals.

   Both programs compute, for each batch b and row n,
     out[b, n, 0:1024]    = rgb[b, n, :]
     out[b, n, 1024:2048] = 1/2 · Σ_m softmax_m( (Σ_e q[b,n,e] · k[b,m,e]) / 32 ) · freq[b, m, :]
   with q = rgb · Wq and k = freq · Wk.  The kernel multiplies the scores by the dyadic 1/32 where the
   reference divides by sqrt 1024 = 32, and folds its row maximum from −∞ where the reference takes the
   maximum with −∞ once more; everything else is the same arrangement of sums and products, so no law that
   needs finite inputs is used.

   The kernel side: each grid point (batch, q-tile) writes back its 256 rows of the result; the keys and
   values it reads were stored at the batch's first q-tile and are carried unchanged through the batch's other
   q-tiles (an induction on the point); the 64 blocks cover the result array.  The reference side: its last
   stage, read index by index, is the same function of the arguments. -/
import proofs.«112244_j62027917689453_2_alg».proof.Defs
import proofs.«112244_j62027917689453_2_alg».proof.Proof.Gen.Kernel
import proofs.«112244_j62027917689453_2_alg».proof.Proof.Gen.Kernel.Skeleton
import proofs.«112244_j62027917689453_2_alg».proof.Proof.Gen.Kernel.Launch
import proofs.«112244_j62027917689453_2_alg».proof.Proof.Gen.Kernel.Points
import proofs.«112244_j62027917689453_2_alg».proof.Proof.Gen.Kernel.Frame
import proofs.«112244_j62027917689453_2_alg».proof.Proof.Gen.KernelIdeal
import proofs.«112244_j62027917689453_2_alg».proof.Proof.Gen.KernelIdeal.Skeleton
import proofs.«112244_j62027917689453_2_alg».proof.Proof.Gen.KernelIdeal.Launch
import proofs.«112244_j62027917689453_2_alg».proof.Proof.Gen.KernelIdeal.Points
import proofs.«112244_j62027917689453_2_alg».proof.Proof.Gen.KernelIdeal.Frame
import proofs.«112244_j62027917689453_2_alg».proof.Proof.Gen.KernelIdeal.Value
import proofs.«112244_j62027917689453_2_alg».proof.Proof.Gen.ReferenceIdeal
import proofs.«112244_j62027917689453_2_alg».proof.Proof.Gen.ReferenceIdeal.Run
import proofs.«112244_j62027917689453_2_alg».proof.Proof.Gen.ReferenceIdeal.Read
import proofs.«112244_j62027917689453_2_alg».proof.Proof.Gen.Pre_finite_inputs
import proofs.«112244_j62027917689453_2_alg».proof.Proof.Final
import proofs.«112244_j62027917689453_2_alg».proof.Proof.RefIsResult
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals, from memories that agree on the arguments, the kernel's result array ends at the stated
    result of its arguments and the reference's last stage is the stated result of its own. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Final.resultArray m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq (F := Ideal) _ _ _ _).trans ?_
  refine (Cert.ReferenceIdeal.RefValue.stage_eq_result _ _ _ _).trans ?_
  rw [(hagree c).1, (hagree c).2.1, (hagree c).2.2.2.1, (hagree c).2.2.2.2.1]
  exact (Cert.KernelIdeal.Final.resultArray_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
